-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S1024x256 : 0 < S1024x256.numel
  inb_S1024x256_S1024x256_0_0 : ∀ a, (![0, 0] : Fin 2 → Nat) a + S1024x256.size a ≤ S1024x256.size a
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Piece.lean ====
/-
  What one run of the kernel body leaves in the output tile's buffer, as a value: the body's single store covers the
  whole 1024 × 1024 tile, so the buffer ends holding that store's payload — the body's arithmetic applied to the first
  argument's tile `x0` (loaded whole) and to the 1024 rows of the resident second argument `x1` that start at the row
  offset the body computes from the grid point.
-/
import proofs.«112314_j20658792694341_2_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen
open Idealize.ShloMosaic Idealize.ShloMosaic.TcCoe Idealize.SL.Sem Idealize.ShloMosaic.Tactic

variable {F : FTy → Type} [FloatOps F]

theorem zero_offsets : (![0, 0] : Fin 2 → Nat) = fun _ => 0 := funext fun a => by fin_cases a <;> rfl

/-- The output tile after the body, at any grid point and on any whole buffers holding `x0` and `x1`: the payload of the
    first argument's tile and of the resident array read through the rectangle of 1024 rows at the computed offset. -/
theorem stored_eq (c : Dev nD) (i : grid0.Coords) (arg2 : Memref sig .tc .vmem S1024x256 .f32) (harg2 : arg2.IsWhole)
    (arg3 : Memref sig .tc .vmem S8192x256 .f32) (harg3 : arg3.IsWhole)
    (arg4 : Memref sig .tc .vmem S1024x1024 .f32) (harg4 : arg4.IsWhole)
    (x0 : Vec F S1024x256 .f32) (x1 : Vec F S8192x256 .f32) :
    out0_A_2 c i arg2 harg2 arg3 harg3 arg4 harg4 x0 x1
      = k0_pay1 (View.ld x1 (Rect.unit (s := S8192x256) (k0_off1 i) S1024x256.size (k0_off1_inb i))) x0 := by
  unfold out0_A_2
  rw [View.read_writes_eq_canon _ _ _ (cover0_A_2 c i arg2 harg2 arg3 harg3 arg4 harg4 x0 x1)]
  unfold kernelRun0_A
  dsimp only
  rw [View.canon_unit_zero zero_offsets]
  simp only [View.readAt_eq_ld, harg2.read_unread, harg3.read_unread, View.ld_unit_zero (S := S1024x256) zero_offsets]

end Cert.KernelIdeal.Piece

end
-- ==== Proof.Distance.lean ====
/-
  The Euclidean distance matrix of two families of 256-dimensional rows, written through the expansion
      |a - b|^2 = |a|^2 + |b|^2 - 2 <a, b>:
  entry (n, l) is  sqrt (max (|a_n|^2 + |b_l|^2 - 2 <a_n, b_l>) 0)  over the extended reals, the three numbers being
  plain sums over the 256 coordinates.  The constants 2 and 0 stay the binary words both programs print, so that the
  same word on both sides is never evaluated.  Nothing here mentions a program: rows are read at indices built from
  literal coordinates.
-/
import Idealize.ShloMosaic.PureOps.Ideal
import Idealize.ShloMosaic.PureOps.Ideal.Laws
import Idealize.ShloMosaic.Lib.ValueIdx

noncomputable section

namespace Cert.Distance

open Idealize.ShloMosaic Idealize.ShloMosaic.ValueIdx

/-- The squared length of row `n` of an array of `R` rows: the sum of the squares of its 256 coordinates. -/
def sqLen {R : Nat} (a : (⟨2, ![R, 256]⟩ : Shape).Idx → EReal) (n : Fin R) : EReal :=
  ∑ k : Fin 256, a (ix2 n k) * a (ix2 n k)

/-- The inner product of row `n` of `a` with row `l` of `b`. -/
def inner {R R' : Nat} (a : (⟨2, ![R, 256]⟩ : Shape).Idx → EReal) (b : (⟨2, ![R', 256]⟩ : Shape).Idx → EReal)
    (n : Fin R) (l : Fin R') : EReal :=
  ∑ k : Fin 256, a (ix2 n k) * b (ix2 l k)

/-- The distance from the two squared lengths and the inner product: the expansion, clamped at zero, then the root. -/
def ofParts (s₁ s₂ ip : EReal) : EReal :=
  Ideal.sqrt (max (s₁ + s₂ - Ideal.ofBits .f32 0x40000000#32 * ip) (Ideal.ofBits .f32 0x00000000#32))

/-- The distance between row `n` of `a` and row `l` of `b`. -/
def dist {R R' : Nat} (a : (⟨2, ![R, 256]⟩ : Shape).Idx → EReal) (b : (⟨2, ![R', 256]⟩ : Shape).Idx → EReal)
    (n : Fin R) (l : Fin R') : EReal :=
  ofParts (sqLen a n) (sqLen b l) (inner a b n l)

/-- The distance depends only on the two rows: rows that agree coordinate by coordinate, wherever they sit in whatever
    arrays, are at the same distance. -/
theorem dist_congr {R R' S S' : Nat} (a : (⟨2, ![R, 256]⟩ : Shape).Idx → EReal) (b : (⟨2, ![R', 256]⟩ : Shape).Idx → EReal)
    (a' : (⟨2, ![S, 256]⟩ : Shape).Idx → EReal) (b' : (⟨2, ![S', 256]⟩ : Shape).Idx → EReal)
    (n : Fin R) (l : Fin R') (n' : Fin S) (l' : Fin S')
    (ha : ∀ k : Fin 256, a (ix2 n k) = a' (ix2 n' k)) (hb : ∀ k : Fin 256, b (ix2 l k) = b' (ix2 l' k)) :
    dist a b n l = dist a' b' n' l' := by
  unfold dist sqLen inner
  simp only [ha, hb]

/-- The whole 8192 × 8192 matrix of distances, as a function of the array index. -/
def distArr (a b : (⟨2, ![8192, 256]⟩ : Shape).Idx → EReal) : (⟨2, ![8192, 8192]⟩ : Shape).Idx → EReal :=
  fun i => dist a b ⟨(i 0).val, (i 0).isLt⟩ ⟨(i 1).val, (i 1).isLt⟩

theorem distArr_ix2 (a b : (⟨2, ![8192, 256]⟩ : Shape).Idx → EReal) (n l : Fin 8192) :
    distArr a b (ix2 n l) = dist a b n l := rfl

end Cert.Distance

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Body.lean ====
/-
  What the kernel body computes from its two loaded tiles, read at one entry `(p, q)` of the 1024 × 1024 output tile.
  `v4` is the tile of 1024 rows of the first argument and `v3` the 1024 rows of the second argument the body slices
  out of the resident array.  The lane sums of the squared tiles are the rows' squared lengths; kept as columns, one is
  broadcast along the rows and the other, transposed to a row, down the columns, so that entry `(p, q)` receives
  |v4_p|^2 + |v3_q|^2.  The change of format before the matrix product is the identity on extended reals, and the
  product into a zero accumulator, both operands contracted along their 256 coordinates, is the inner product of row
  `p` of `v4` with row `q` of `v3`.  So entry `(p, q)` is the distance between those two rows.
-/
import proofs.«112314_j20658792694341_2_alg».proof.Proof.Gen.KernelIdeal.Skeleton
import proofs.«112314_j20658792694341_2_alg».proof.Proof.Distance
import proofs.«112314_j20658792694341_2_alg».proof.Proof.LibKeepdims
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx

/-- The lane sum of a squared tile at row `r` is that row's squared length. -/
theorem laneSum_apply (v : FVec Ideal S1024x256 .f32) (r : Fin 1024) :
    multiReduction .add [1] S1024 (mulf v v) 0x00000000#32 reduces_S1024x256_S1024 (.inl rfl) rfl (ix1 r)
      = Cert.Distance.sqLen v r := by
  refine (Ideal.multiReduction_add_single (mulf v v) 0x00000000#32 reduces_S1024x256_S1024 (.inl rfl) rfl (ix1 r)).trans ?_
  refine Finset.sum_congr rfl fun k _ => ?_
  have e : reduces_S1024x256_S1024.lift (ix1 r) k = ix2 r (⟨k.val, k.isLt⟩ : Fin 256) :=
    funext fun a => Fin.ext (by match a with | ⟨0, _⟩ => rfl | ⟨1, _⟩ => rfl)
  show v (reduces_S1024x256_S1024.lift (ix1 r) k) * v (reduces_S1024x256_S1024.lift (ix1 r) k) = _
  rw [e]
  rfl

/-- The squared lengths kept as a column and broadcast along the rows: entry `(p, q)` holds row `p`'s. -/
theorem alongRows_apply (v : FVec Ideal S1024x256 .f32) (p q : Fin 1024) :
    broadcastTo S1024x1024 (shapeCast S1024x1
        (multiReduction .add [1] S1024 (mulf v v) 0x00000000#32 reduces_S1024x256_S1024 (.inl rfl) rfl)
        shapeCasts_S1024_S1024x1) broadcasts_S1024x1_S1024x1024 (ix2 p q)
      = Cert.Distance.sqLen v p := by
  refine (Cert.Keepdims.broadcastTo_a1_ab_apply _ broadcasts_S1024x1_S1024x1024 p q).trans ?_
  refine (Cert.Keepdims.shapeCast_a_a1_apply _ shapeCasts_S1024_S1024x1 p (0 : Fin 1)).trans ?_
  exact laneSum_apply v p

/-- The squared lengths kept as a column, transposed to a row and broadcast down the columns: entry `(p, q)` holds
    row `q`'s. -/
theorem downColumns_apply (v : FVec Ideal S1024x256 .f32) (p q : Fin 1024) :
    broadcastTo S1024x1024 (transpose S1x1024 [1, 0] (shapeCast S1024x1
        (multiReduction .add [1] S1024 (mulf v v) 0x00000000#32 reduces_S1024x256_S1024 (.inl rfl) rfl)
        shapeCasts_S1024_S1024x1) transposes_S1024x1_p1_0_S1x1024) broadcasts_S1x1024_S1024x1024 (ix2 p q)
      = Cert.Distance.sqLen v q := by
  refine (broadcastTo_1b_ab_apply _ broadcasts_S1x1024_S1024x1024 p q).trans ?_
  refine (transpose_ix2_apply _ transposes_S1024x1_p1_0_S1x1024 (0 : Fin 1) q).trans ?_
  refine (Cert.Keepdims.shapeCast_a_a1_apply _ shapeCasts_S1024_S1024x1 q (0 : Fin 1)).trans ?_
  exact laneSum_apply v q

theorem lhs_0 (i : S1024x1024.Idx) (c : dot_S1024x256_S1024x256_S1024x1024_1_1_0_0_n_n.contr.Idx) :
    (dot_S1024x256_S1024x256_S1024x1024_1_1_0_0_n_n.lhsIdx i c 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem lhs_1 (i : S1024x1024.Idx) (c : dot_S1024x256_S1024x256_S1024x1024_1_1_0_0_n_n.contr.Idx) :
    (dot_S1024x256_S1024x256_S1024x1024_1_1_0_0_n_n.lhsIdx i c 1).val = (c ⟨0, by decide⟩).val :=
  dot_S1024x256_S1024x256_S1024x1024_1_1_0_0_n_n.lhsIdx_val_of_single rfl i c
theorem rhs_0 (i : S1024x1024.Idx) (c : dot_S1024x256_S1024x256_S1024x1024_1_1_0_0_n_n.contr.Idx) :
    (dot_S1024x256_S1024x256_S1024x1024_1_1_0_0_n_n.rhsIdx i c 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem rhs_1 (i : S1024x1024.Idx) (c : dot_S1024x256_S1024x256_S1024x1024_1_1_0_0_n_n.contr.Idx) :
    (dot_S1024x256_S1024x256_S1024x1024_1_1_0_0_n_n.rhsIdx i c 1).val = (c ⟨0, by decide⟩).val :=
  dot_S1024x256_S1024x256_S1024x1024_1_1_0_0_n_n.rhsIdx_val_of_single rfl i c

/-- The matrix product into a zero accumulator, both tiles contracted along their 256 coordinates: entry `(p, q)` is
    the inner product of row `p` of the left tile with row `q` of the right one (the change of format of the operands
    is the identity on extended reals). -/
theorem product_apply (l r : FVec Ideal S1024x256 .f32) (p q : Fin 1024) :
    matmul dot_S1024x256_S1024x256_S1024x1024_1_1_0_0_n_n none (truncf .bf16 l bitsLt_bf16_f32)
        (truncf .bf16 r bitsLt_bf16_f32) (constant S1024x1024 .f32 0x00000000#32) (ix2 p q)
      = Cert.Distance.inner l r p q := by
  refine (Ideal.matmul_constant_zero_apply dot_S1024x256_S1024x256_S1024x1024_1_1_0_0_n_n none
    (truncf .bf16 l bitsLt_bf16_f32) (truncf .bf16 r bitsLt_bf16_f32) (ix2 p q)).trans ?_
  unfold Cert.Distance.inner
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun a => Fin.ext (by
      match a with
      | ⟨0, _⟩ => exact lhs_0 _ _
      | ⟨1, _⟩ => exact (lhs_1 _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun a => Fin.ext (by
      match a with
      | ⟨0, _⟩ => exact rhs_0 _ _
      | ⟨1, _⟩ => exact (rhs_1 _ _).trans hk)
  show l (dot_S1024x256_S1024x256_S1024x1024_1_1_0_0_n_n.lhsIdx (ix2 p q) _)
      * r (dot_S1024x256_S1024x256_S1024x1024_1_1_0_0_n_n.rhsIdx (ix2 p q) _) = _
  rw [el, er]

/-- THE BODY AT AN ENTRY: from the second argument's rows `v3` and the first argument's rows `v4`, entry `(p, q)` of
    what the body stores is the distance between row `p` of `v4` and row `q` of `v3`. -/
theorem payload_apply (v3 v4 : Vec Ideal S1024x256 .f32) (p q : Fin 1024) :
    k0_pay1 (F := Ideal) v3 v4 (ix2 p q) = Cert.Distance.dist v4 v3 p q := by
  unfold k0_pay1 Cert.Distance.dist Cert.Distance.ofParts
  refine congrArg Ideal.sqrt (congrArg₂ max (congrArg₂ (· - ·) (congrArg₂ (· + ·) ?_ ?_) (congrArg (_ * ·) ?_)) rfl)
  · exact alongRows_apply v4 p q
  · exact downColumns_apply v3 p q
  · exact product_apply v4 v3 p q

end Cert.KernelIdeal.Body

end
-- ==== Proof.Blocks.lean ====
/-
  From the tiles to the whole array.  The grid has 8 × 8 points; point (g₀, g₁) reads tile g₀ of the first argument
  (rows 1024·g₀ …), the whole second argument, of which the body uses rows 1024·g₁ …, and writes tile (g₀, g₁) of the
  result.  Entry (y₀, y₁) of that tile is the distance between row 1024·g₀ + y₀ of the first argument and row
  1024·g₁ + y₁ of the second: exactly the distance matrix at the array index the tile's entry lands on.  The 64 tiles
  cover the 8192 × 8192 result (index (i₀, i₁) is in the tile of point (i₀ / 1024, i₁ / 1024)), so after the run the
  result array IS the distance matrix of the two arguments.
-/
import proofs.«112314_j20658792694341_2_alg».proof.Proof.Gen.KernelIdeal.Value
import proofs.«112314_j20658792694341_2_alg».proof.Proof.Piece
import proofs.«112314_j20658792694341_2_alg».proof.Proof.Body
import proofs.«112314_j20658792694341_2_alg».proof.Proof.Distance

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The three index maps over the 64 grid points: the first argument's tile moves with the output's row of tiles, the
    second argument is one block that never moves, the body's row offset follows the output's column of tiles, and
    the output's tile indices stay below 8. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ ((grid0.coords t) 1).val = win0_2.index t (1 : Fin 2)
    ∧ win0_2.index t (0 : Fin 2) ≤ 7
    ∧ win0_2.index t (1 : Fin 2) ≤ 7 :=
  (by decide +kernel : ∀ t : Fin grid0.N, _)

/-- Every one of the 8 × 8 tiles of the result is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- ONE ENTRY OF A TILE, over plain variables: if row `y 0` of the tile `x0` is row `i 0` of `A`, and row `y 1` of the 1024
    rows of `x1` at the offset is row `i 1` of `B`, then entry `y` of the body's payload is the distance matrix of `A` and `B`
    at `i`. -/
theorem tile_entry (A B : S8192x256.Idx → EReal) (x0 : Vec Ideal S1024x256 .f32) (x1 : Vec Ideal S8192x256 .f32)
    (off : Fin 2 → Nat) (inb : ∀ a, off a + S1024x256.size a ≤ S8192x256.size a)
    (y : S1024x1024.Idx) (i : S8192x8192.Idx)
    (h0 : ∀ k : Fin 256, x0 (ix2 (⟨(y 0).val, (y 0).isLt⟩ : Fin 1024) k) = A (ix2 (⟨(i 0).val, (i 0).isLt⟩ : Fin 8192) k))
    (h1 : ∀ k : Fin 256, x1 ((Rect.unit (s := S8192x256) off S1024x256.size inb).idx (ix2 (⟨(y 1).val, (y 1).isLt⟩ : Fin 1024) k))
      = B (ix2 (⟨(i 1).val, (i 1).isLt⟩ : Fin 8192) k)) :
    k0_pay1 (F := Ideal) (View.ld x1 (Rect.unit (s := S8192x256) off S1024x256.size inb)) x0 y
      = Cert.Distance.distArr A B i := by
  obtain ⟨p, q, rfl⟩ : ∃ (p q : Fin 1024), y = ix2 p q := ⟨y 0, y 1, eq_ix2 y⟩
  rw [Cert.KernelIdeal.Body.payload_apply]
  exact Cert.Distance.dist_congr _ _ _ _ _ _ _ _ h0 h1

/-- WHAT POINT `t` WRITES BACK is tile `t` of the distance matrix of the two arguments as the run finds them. -/
theorem flushed_eq (c : Dev nD) (t : Fin cfg0.N) :
    (dats m 0 c).flushed 2 t
      = ((cfg0.win 2).blk t).view.read (Elt Ideal) (Cert.Distance.distArr (V m c main_arg0) (V m c main_arg1)) := by
  rw [Cert.KernelIdeal.Value.flushed2_A, Cert.KernelIdeal.Piece.stored_eq]
  obtain ⟨e0, e1, e2, e3, e4, e5, e6⟩ := idx_facts t
  have ho := k0_off1_eq (grid0.coords t)
  have ho0 : k0_off1 (grid0.coords t) (0 : Fin 2) = 1024 * ((grid0.coords t) 1).val := by rw [ho]; rfl
  have ho1 : k0_off1 (grid0.coords t) (1 : Fin 2) = 0 := by rw [ho]; rfl
  funext j
  have hj0 : (j 0).val < 1024 := (j 0).isLt
  have hj1 : (j 1).val < 1024 := (j 1).isLt
  show k0_pay1 (F := Ideal) (View.ld (iblk m c 1 t)
        (Rect.unit (s := S8192x256) (k0_off1 (grid0.coords t)) S1024x256.size (k0_off1_inb (grid0.coords t))))
      (iblk m c 0 t) j
    = Cert.Distance.distArr (V m c main_arg0) (V m c main_arg1) (((cfg0.win 2).blk t).view.emb j)
  refine tile_entry (V m c main_arg0) (V m c main_arg1) (iblk m c 0 t) (iblk m c 1 t) _ _ j _ (fun k => ?_) (fun k => ?_)
  · show V m c main_arg0 (((cfg0.win 0).blk t).view.emb (ix2 (⟨(j 0).val, hj0⟩ : Fin 1024) k)) = V m c main_arg0 _
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 256 + 1 * k.val = k.val
      omega
  · show V m c main_arg1 (((cfg0.win 1).blk t).view.emb
        ((Rect.unit (s := S8192x256) (k0_off1 (grid0.coords t)) S1024x256.size (k0_off1_inb (grid0.coords t))).idx
          (ix2 (⟨(j 1).val, hj1⟩ : Fin 1024) k))) = V m c main_arg1 _
    refine congrArg (V m c main_arg1) (funext fun a => Fin.ext ?_)
    match a with
    | ⟨0, _⟩ =>
      show win0_1.index t (0 : Fin 2) * 8192 + 1 * (k0_off1 (grid0.coords t) (0 : Fin 2) + 1 * (j 1).val)
        = win0_2.index t (1 : Fin 2) * 1024 + 1 * (j 1).val
      omega
    | ⟨1, _⟩ =>
      show win0_1.index t (1 : Fin 2) * 256 + 1 * (k0_off1 (grid0.coords t) (1 : Fin 2) + 1 * k.val) = k.val
      omega

/-- An index of the result is in point `t`'s tile iff each coordinate is in the tile's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: index (i₀, i₁) is in the tile of the point with tile indices (i₀ / 1024, i₁ / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run is the distance matrix of the two argument arrays. -/
theorem final (c : Dev nD) :
    (dats m 0 c).arrAt 2 cfg0.N
      = Cert.Distance.distArr (m ((c : Thread nD τ).loc main_arg0)) (m ((c : Thread nD τ).loc main_arg1)) :=
  (dats m 0 c).arrAt_eq_of_cover 2 (Cert.Distance.distArr (V m c main_arg0) (V m c main_arg1))
    (fun t _ => flushed_eq m c t) covered

/-- The kernel's run, read: the result array at the distance matrix of the arguments, the arguments unchanged. -/
theorem run : θ_run defs (onTc (τ := τ) (main (F := Ideal))) ⟨m, fun _ => 0, ρ⟩ fun r => ∀ c : Dev nD,
      r.2.mem ((c : Thread nD τ).loc main_v0)
        = Cert.Distance.distArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.Reference.lean ====
/-
  The reference program's result, read one operation at a time at an index, is the distance matrix: its two row sums
  start from the zero word (0 + a sum is the sum), its contraction is the inner product of the two rows, and the
  keepdims column, its transpose and the two broadcasts only route the row number `i 0` to the first squared length
  and the column number `i 1` to the second.
-/
import proofs.«112314_j20658792694341_2_alg».proof.Proof.Gen.ReferenceIdeal.Read
import proofs.«112314_j20658792694341_2_alg».proof.Proof.Distance

noncomputable section

namespace Cert.ReferenceIdeal.RefValue

open Cert.ReferenceIdeal Cert.ReferenceIdeal.Gen Cert.ReferenceIdeal.Read
open Idealize.ShloMosaic Idealize.ShloMosaic.ValueIdx

/-- The first row sum, followed through the column, and its broadcast, runs over row `i 0` of the first argument. -/
theorem idx_rows₁ (i : S8192x8192.Idx) (k : Fin 256) :
    idx_main_v1 (idx_main_v2 (idx_main_v8 i)) k = ix2 (⟨(i 0).val, (i 0).isLt⟩ : Fin 8192) k :=
  funext fun a => Fin.ext (by match a with | ⟨0, _⟩ => rfl | ⟨1, _⟩ => rfl)

/-- The second row sum, followed through the column, its transpose and the broadcast, runs over row `i 1` of the
    second argument. -/
theorem idx_rows₂ (i : S8192x8192.Idx) (k : Fin 256) :
    idx_main_v4 (idx_main_v5 (idx_main_v7 (idx_main_v9 i))) k = ix2 (⟨(i 1).val, (i 1).isLt⟩ : Fin 8192) k :=
  funext fun a => Fin.ext (by match a with | ⟨0, _⟩ => rfl | ⟨1, _⟩ => rfl)

/-- The contraction reads row `i 0` of the first argument … -/
theorem idx_lhs (i : S8192x8192.Idx) (k : Fin 256) :
    lidx_main_v6 i k = ix2 (⟨(i 0).val, (i 0).isLt⟩ : Fin 8192) k :=
  funext fun a => Fin.ext (by match a with | ⟨0, _⟩ => rfl | ⟨1, _⟩ => rfl)

/-- … against row `i 1` of the second. -/
theorem idx_rhs (i : S8192x8192.Idx) (k : Fin 256) :
    ridx_main_v6 i k = ix2 (⟨(i 1).val, (i 1).isLt⟩ : Fin 8192) k :=
  funext fun a => Fin.ext (by match a with | ⟨0, _⟩ => rfl | ⟨1, _⟩ => rfl)

/-- The reference's last stage is the distance matrix of its two arguments. -/
theorem result_eq (x0 x1 : (⟨S8192x256, .f32⟩ : BufTy).Contents (Elt Ideal)) :
    val_main_v16 (F := Ideal) x0 x1 = Cert.Distance.distArr x0 x1 := by
  funext i
  rw [val_main_v16_apply, val_main_v15_apply, val_main_v13_apply, val_main_v10_apply, val_main_v8_apply,
    val_main_v2_apply, val_main_v1_apply, val_main_v9_apply, val_main_v7_apply, val_main_v5_apply, val_main_v4_apply,
    val_main_v12_apply, val_main_v11_apply, val_main_v6_apply, val_main_v14_apply]
  simp only [val_main_v0_apply, val_main_v3_apply, val_main_cst_apply, val_main_cst_0_apply, val_main_cst_1_apply,
    val_main_cst_2_apply, idx_rows₁, idx_rows₂, idx_lhs, idx_rhs, Ideal.ofBits_def, Ideal.addf_def, Ideal.subf_def,
    Ideal.mulf_def, Ideal.maximumf_def, Ideal.hostUnary_sqrt_def, Ideal.ofBits_zero_f32, zero_add]
  simp only [Cert.Distance.distArr, Cert.Distance.dist, Cert.Distance.ofParts, Cert.Distance.sqLen,
    Cert.Distance.inner, Ideal.ofBits_zero_f32]

end Cert.ReferenceIdeal.RefValue

end
-- ==== Proof.lean ====
/- The pairwise Euclidean distance kernel against its jnp reference, over the extended reals.

   Both programs compute, for rows a_n of the first argument and b_l of the second (8192 rows of 256 coordinates each),
       d(n, l) = sqrt (max (|a_n|^2 + |b_l|^2 - 2 <a_n, b_l>) 0),
   the squared lengths and the inner product being sums over the 256 coordinates, the constants 2 and 0 the same
   binary words on both sides, and the operations applied in the same order.  The reference does it on whole arrays
   (two row sums kept as columns, one transposed, both broadcast, one contraction).  The kernel does it tile by tile
   on an 8 × 8 grid: at point (g₀, g₁) it takes rows 1024·g₀ … of the first argument and rows 1024·g₁ … of the second,
   which it holds whole, computes the same expression on the 1024 × 1024 tile (its change of float format before the
   matrix product is the identity on extended reals, and its product into a zero accumulator is the plain sum), and
   writes tile (g₀, g₁) of the result.  The 64 tiles cover the result, so the result array is the whole matrix
   (`Blocks.run`), and the reference's last stage is the same matrix (`RefValue.result_eq`).  No law of the extended
   reals beyond 0 + s = s is needed, so the finiteness of the inputs is never opened.

   The kernel's frame and its run with the result array named are imported (generated), as are the reference's run
   and its stages read at an index; the idealization rewrote nothing, so `preserves` is trivial. -/
import proofs.«112314_j20658792694341_2_alg».proof.Defs
import proofs.«112314_j20658792694341_2_alg».proof.Proof.Gen.Kernel
import proofs.«112314_j20658792694341_2_alg».proof.Proof.Gen.Kernel.Skeleton
import proofs.«112314_j20658792694341_2_alg».proof.Proof.Gen.Kernel.Launch
import proofs.«112314_j20658792694341_2_alg».proof.Proof.Gen.Kernel.Points
import proofs.«112314_j20658792694341_2_alg».proof.Proof.Gen.Kernel.Frame
import proofs.«112314_j20658792694341_2_alg».proof.Proof.Gen.KernelIdeal
import proofs.«112314_j20658792694341_2_alg».proof.Proof.Gen.KernelIdeal.Skeleton
import proofs.«112314_j20658792694341_2_alg».proof.Proof.Gen.KernelIdeal.Launch
import proofs.«112314_j20658792694341_2_alg».proof.Proof.Gen.KernelIdeal.Points
import proofs.«112314_j20658792694341_2_alg».proof.Proof.Gen.KernelIdeal.Frame
import proofs.«112314_j20658792694341_2_alg».proof.Proof.Gen.ReferenceIdeal
import proofs.«112314_j20658792694341_2_alg».proof.Proof.Gen.Pre_finite_inputs
import proofs.«112314_j20658792694341_2_alg».proof.Proof.Gen.KernelIdeal.Value
import proofs.«112314_j20658792694341_2_alg».proof.Proof.Gen.ReferenceIdeal.Run
import proofs.«112314_j20658792694341_2_alg».proof.Proof.Gen.ReferenceIdeal.Read
import proofs.«112314_j20658792694341_2_alg».proof.Proof.Blocks
import proofs.«112314_j20658792694341_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the distance matrix of their arguments, and the arguments agree. -/
theorem algebraic : Cert.algebraic_KernelIdeal_ReferenceIdeal := by
  intro m ρ m' ρ' _ hagree
  refine ⟨fun c => Cert.Distance.distArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
